-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x128x512 : Shape := ⟨3, ![2, 128, 512]⟩
abbrev S2x512x512 : Shape := ⟨3, ![2, 512, 512]⟩
abbrev S512x512 : Shape := ⟨2, ![512, 512]⟩
abbrev S512 : Shape := ⟨1, ![512]⟩
abbrev S512x1024 : Shape := ⟨2, ![512, 1024]⟩
abbrev S1024 : Shape := ⟨1, ![1024]⟩
abbrev S_ : Shape := ⟨0, ![]⟩

class Facts : Prop where
  bcast_S_S2x128x512 : S_.BroadcastsInDim S2x128x512 (![] : Fin 0 → Fin S2x128x512.rank)
  reducesTo_S2x128x512_S_d0_1_2 : S2x128x512.ReducesTo [0, 1, 2] S_
  h_S_ : 0 < S_.numel
  bcast_S_S2x512x512 : S_.BroadcastsInDim S2x512x512 (![] : Fin 0 → Fin S2x512x512.rank)
  reducesTo_S2x512x512_S_d0_1_2 : S2x512x512.ReducesTo [0, 1, 2] S_
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_
  bcast_S_S512x1024 : S_.BroadcastsInDim S512x1024 (![] : Fin 0 → Fin S512x1024.rank)
  reducesTo_S512x1024_S_d0_1 : S512x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S512x1024 .f32) (main_arg5 : FVec F S1024 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S512x1024 .f32 := Host.absf main_arg4
  let main_cst_6 : FVec F S_ .f32 := constant S_ .f32 0x7F800000#32
  let main_v20 : FVec F S512x1024 .f32 := broadcastInDim S512x1024 ![] bcast_S_S512x1024 main_cst_6
  let main_v21 : IVec S512x1024 1 := cmpf .olt main_v19 main_v20
  let main_c_7 : IVec S_ 1 := constantI S_ 1 1#1
  let main_v22 : IVec S_ 1 := (fun x v => Host.reduce IntOp.andi x v reducesTo_S512x1024_S_d0_1 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  main_v28

def fn {F : FTy → Type} [FloatOps F] (main_arg0 : FVec F S2x128x512 .f32) (main_arg1 : FVec F S2x512x512 .f32) (main_arg2 : FVec F S512x512 .f32) (main_arg3 : FVec F S512 .f32) (main_arg4 : FVec F S512x1024 .f32) (main_arg5 : FVec F S1024 .f32) : IVec S_ 1 :=
  let main_v0 : FVec F S2x128x512 .f32 := Host.absf main_arg0
  let main_cst : FVec F S_ .f32 := constant S_ .f32 0x7F800000#32
  let main_v1 : FVec F S2x128x512 .f32 := broadcastInDim S2x128x512 ![] bcast_S_S2x128x512 main_cst
  let main_v2 : IVec S2x128x512 1 := cmpf .olt main_v0 main_v1
  let main_c : IVec S_ 1 := constantI S_ 1 1#1
  let main_v3 : IVec S_ 1 := (fun x v => Host.reduce IntOp.andi x v reducesTo_S2x128x512_S_d0_1_2 h_S_) main_v2 main_c
  let main_v4 : FVec F S2x512x512 .f32 := Host.absf main_arg1
  let main_cst_0 : FVec F S_ .f32 := constant S_ .f32 0x7F800000#32
  let main_v5 : FVec F S2x512x512 .f32 := broadcastInDim S2x512x512 ![] bcast_S_S2x512x512 main_cst_0
  let main_v6 : IVec S2x512x512 1 := cmpf .olt main_v4 main_v5
  let main_c_1 : IVec S_ 1 := constantI S_ 1 1#1
  let main_v7 : IVec S_ 1 := (fun x v => Host.reduce IntOp.andi x v reducesTo_S2x512x512_S_d0_1_2 h_S_) main_v6 main_c_1
  let main_v8 : IVec S_ 1 := andi main_v3 main_v7
  let main_v9 : FVec F S512x512 .f32 := Host.absf main_arg2
  let main_cst_2 : FVec F S_ .f32 := constant S_ .f32 0x7F800000#32
  let main_v10 : FVec F S512x512 .f32 := broadcastInDim S512x512 ![] bcast_S_S512x512 main_cst_2
  let main_v11 : IVec S512x512 1 := cmpf .olt main_v9 main_v10
  let main_c_3 : IVec S_ 1 := constantI S_ 1 1#1
  let main_v12 : IVec S_ 1 := (fun x v => Host.reduce IntOp.andi x v reducesTo_S512x512_S_d0_1 h_S_) main_v11 main_c_3
  let main_v13 : IVec S_ 1 := andi main_v8 main_v12
  let main_v14 : FVec F S512 .f32 := Host.absf main_arg3
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg4 main_arg5 main_v13 main_v16
-- ==== Kernel.lean ====
abbrev S2x128x512 : Shape := ⟨3, ![2, 128, 512]⟩
abbrev S2x512x512 : Shape := ⟨3, ![2, 512, 512]⟩
abbrev S512x512 : Shape := ⟨2, ![512, 512]⟩
abbrev S512 : Shape := ⟨1, ![512]⟩
abbrev S512x1024 : Shape := ⟨2, ![512, 1024]⟩
abbrev S1024 : Shape := ⟨1, ![1024]⟩
abbrev S1x512 : Shape := ⟨2, ![1, 512]⟩
abbrev S1x1024 : Shape := ⟨2, ![1, 1024]⟩
abbrev S2x512x128x1024 : Shape := ⟨4, ![2, 512, 128, 1024]⟩
abbrev S1x8x512 : Shape := ⟨3, ![1, 8, 512]⟩
abbrev S1x128x512 : Shape := ⟨3, ![1, 128, 512]⟩
abbrev S1x8x128x1024 : Shape := ⟨4, ![1, 8, 128, 1024]⟩
abbrev S8x512 : Shape := ⟨2, ![8, 512]⟩
abbrev S128x512 : Shape := ⟨2, ![128, 512]⟩
abbrev S8x1x512 : Shape := ⟨3, ![8, 1, 512]⟩
abbrev S8x128x512 : Shape := ⟨3, ![8, 128, 512]⟩
abbrev S1024x512 : Shape := ⟨2, ![1024, 512]⟩
abbrev S1024x1024 : Shape := ⟨2, ![1024, 1024]⟩
abbrev S8x128x1024 : Shape := ⟨3, ![8, 128, 1024]⟩

abbrev nBuf : Space → Nat
  | .hbm => 9
  | .vmem => 10
  | .smem => 0
  | _ => 0

abbrev bufTy : (tb : Table) → Fin (tcTables nBuf tb) → BufTy
  | .hbm, ⟨0, _⟩ => ⟨S2x128x512, .f32⟩
  | .hbm, ⟨1, _⟩ => ⟨S2x512x512, .f32⟩
  | .hbm, ⟨2, _⟩ => ⟨S512x512, .f32⟩
  | .hbm, ⟨3, _⟩ => ⟨S512, .f32⟩
  | .hbm, ⟨4, _⟩ => ⟨S512x1024, .f32⟩
  | .hbm, ⟨5, _⟩ => ⟨S1024, .f32⟩
  | .hbm, ⟨6, _⟩ => ⟨S1x512, .f32⟩
  | .hbm, ⟨7, _⟩ => ⟨S1x1024, .f32⟩
  | .hbm, ⟨8, _⟩ => ⟨S2x512x128x1024, .f32⟩
  | .local _ .vmem, ⟨0, _⟩ => ⟨S1x8x512, .f32⟩
  | .local _ .vmem, ⟨1, _⟩ => ⟨S1x8x512, .f32⟩
  | .local _ .vmem, ⟨2, _⟩ => ⟨S1x128x512, .f32⟩
  | .local _ .vmem, ⟨3, _⟩ => ⟨S1x128x512, .f32⟩
  | .local _ .vmem, ⟨4, _⟩ => ⟨S512x512, .f32⟩
  | .local _ .vmem, ⟨5, _⟩ => ⟨S1x512, .f32⟩
  | .local _ .vmem, ⟨6, _⟩ => ⟨S512x1024, .f32⟩
  | .local _ .vmem, ⟨7, _⟩ => ⟨S1x1024, .f32⟩
  | .local _ .vmem, ⟨8, _⟩ => ⟨S1x8x128x1024, .f32⟩
  | .local _ .vmem, ⟨9, _⟩ => ⟨S1x8x128x1024, .f32⟩
  | _, _ => ⟨S2x128x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨2, ![2, 64], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x8x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S512x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S512x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x8x128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

class Facts₀ : Prop where
  shapeCasts_S512_S1x512 : S512.ShapeCasts S1x512
  shapeCasts_S1024_S1x1024 : S1024.ShapeCasts S1x1024
  inb_S1x8x512_S1x8x512_0_0_0 : ∀ a, (![0, 0, 0] : Fin 3 → Nat) a + S1x8x512.size a ≤ S1x8x512.size a
  h_S1x8x512 : 0 < S1x8x512.numel
  shapeCasts_S1x8x512_S8x512 : S1x8x512.ShapeCasts S8x512
  inb_S1x128x512_S1x128x512_0_0_0 : ∀ a, (![0, 0, 0] : Fin 3 → Nat) a + S1x128x512.size a ≤ S1x128x512.size a
  h_S1x128x512 : 0 < S1x128x512.numel
  shapeCasts_S1x128x512_S128x512 : S1x128x512.ShapeCasts S128x512
  shapeCasts_S8x512_S8x1x512 : S8x512.ShapeCasts S8x1x512
  shapeCasts_S128x512_S1x128x512 : S128x512.ShapeCasts S1x128x512
  broadcasts_S8x1x512_S8x128x512 : S8x1x512.Broadcasts S8x128x512
  broadcasts_S1x128x512_S8x128x512 : S1x128x512.Broadcasts S8x128x512
  shapeCasts_S8x128x512_S1024x512 : S8x128x512.ShapeCasts S1024x512
  bitsLt_bf16_f32 : FTy.bits .bf16 < FTy.bits .f32
  inb_S512x512_S512x512_0_0 : ∀ a, (![0, 0] : Fin 2 → Nat) a + S512x512.size a ≤ S512x512.size a
  h_S512x512 : 0 < S512x512.numel
  inb_S1x512_S1x512_0_0 : ∀ a, (![0, 0] : Fin 2 → Nat) a + S1x512.size a ≤ S1x512.size a
  h_S1x512 : 0 < S1x512.numel
  shapeCasts_S1x512_S512 : S1x512.ShapeCasts S512
  broadcasts_S1x512_S1024x512 : S1x512.Broadcasts S1024x512
  inb_S512x1024_S512x1024_0_0 : ∀ a, (![0, 0] : Fin 2 → Nat) a + S512x1024.size a ≤ S512x1024.size a
  h_S512x1024 : 0 < S512x1024.numel
  inb_S1x1024_S1x1024_0_0 : ∀ a, (![0, 0] : Fin 2 → Nat) a + S1x1024.size a ≤ S1x1024.size a
  h_S1x1024 : 0 < S1x1024.numel
  shapeCasts_S1x1024_S1024 : S1x1024.ShapeCasts S1024
  broadcasts_S1x1024_S1024x1024 : S1x1024.Broadcasts S1024x1024
  shapeCasts_S1024x1024_S8x128x1024 : S1024x1024.ShapeCasts S8x128x1024
  inb_S1x8x128x1024_S1x8x128x1024_0_0_0_0 : ∀ a, (![0, 0, 0, 0] : Fin 4 → Nat) a + S1x8x128x1024.size a ≤ S1x8x128x1024.size a
  h_S1x8x128x1024 : 0 < S1x8x128x1024.numel
  shapeCasts_S1x8x128x1024_S8x128x1024 : S1x8x128x1024.ShapeCasts S8x128x1024
  shapeCasts_S8x128x1024_S1x8x128x1024 : S8x128x1024.ShapeCasts S1x8x128x1024
  dot_S1024x512_S512x512_S1024x512_1_0_0_1_n_n_wf : DotDims.WF S1024x512 S512x512 S1024x512 [1] [0] [0] [1] [] []
  dot_S1024x512_S512x1024_S1024x1024_1_0_0_1_n_n_wf : DotDims.WF S1024x512 S512x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x8x512.size a ≤ S2x512x512.size a
  hwx0_0 : ∀ i : grid0.Coords, EltTy.bits .f32 = 32 ∨ (Rect.block (s := S2x512x512) S1x8x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x128x512.size a ≤ S2x128x512.size a
  hwx0_1 : ∀ i : grid0.Coords, EltTy.bits .f32 = 32 ∨ (Rect.block (s := S2x128x512) S1x128x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S512x512.size a
  hwx0_2 : ∀ i : grid0.Coords, EltTy.bits .f32 = 32 ∨ (Rect.block (s := S512x512) S512x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x512.size a
  hwx0_3 : ∀ i : grid0.Coords, EltTy.bits .f32 = 32 ∨ (Rect.block (s := S1x512) S1x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512x1024.size a ≤ S512x1024.size a
  hwx0_4 : ∀ i : grid0.Coords, EltTy.bits .f32 = 32 ∨ (Rect.block (s := S512x1024) S512x1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1024.size a ≤ S1x1024.size a
  hwx0_5 : ∀ i : grid0.Coords, EltTy.bits .f32 = 32 ∨ (Rect.block (s := S1x1024) S1x1024.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x8x128x1024.size a ≤ S2x512x128x1024.size a
  hwx0_6 : ∀ i : grid0.Coords, EltTy.bits .f32 = 32 ∨ (Rect.block (s := S2x512x128x1024) S1x8x128x1024.size (cc0_transform_6 i) (hinb0_6 i)).WholeWords (EltTy.packing .f32)

variable [Facts₀]

def dot_S1024x512_S512x512_S1024x512_1_0_0_1_n_n : DotDims S1024x512 S512x512 S1024x512 where
  lhsContracting := [1]
  rhsContracting := [0]
  lhsNonContracting := [0]
  rhsNonContracting := [1]
  lhsBatch := []
  rhsBatch := []
  wf := dot_S1024x512_S512x512_S1024x512_1_0_0_1_n_n_wf
def dot_S1024x512_S512x1024_S1024x1024_1_0_0_1_n_n : DotDims S1024x512 S512x1024 S1024x1024 where
  lhsContracting := [1]
  rhsContracting := [0]
  lhsNonContracting := [0]
  rhsNonContracting := [1]
  lhsBatch := []
  rhsBatch := []
  wf := dot_S1024x512_S512x1024_S1024x1024_1_0_0_1_n_n_wf

abbrev win0_0 : Pipeline.Window sig grid0 :=
  Pipeline.Window.ofSpec (Memref.whole main_arg1) S1x8x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1x128x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S512x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S1x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v2) S1x8x128x1024.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S2x128x512 : Shape := ⟨3, ![2, 128, 512]⟩
abbrev S2x512x512 : Shape := ⟨3, ![2, 512, 512]⟩
abbrev S512x512 : Shape := ⟨2, ![512, 512]⟩
abbrev S512 : Shape := ⟨1, ![512]⟩
abbrev S512x1024 : Shape := ⟨2, ![512, 1024]⟩
abbrev S1024 : Shape := ⟨1, ![1024]⟩
abbrev S2x512x1x512 : Shape := ⟨4, ![2, 512, 1, 512]⟩
abbrev S2x1x128x512 : Shape := ⟨4, ![2, 1, 128, 512]⟩
abbrev S2x512x128x512 : Shape := ⟨4, ![2, 512, 128, 512]⟩
abbrev S1x1x1x512 : Shape := ⟨4, ![1, 1, 1, 512]⟩
abbrev S2x512x128x1024 : Shape := ⟨4, ![2, 512, 128, 1024]⟩
abbrev S1x1x1x1024 : Shape := ⟨4, ![1, 1, 1, 1024]⟩

abbrev nBuf : Space → Nat
  | .hbm => 19
  | .vmem => 0
  | .smem => 0
  | _ => 0

abbrev bufTy : (tb : Table) → Fin (tcTables nBuf tb) → BufTy
  | .hbm, ⟨0, _⟩ => ⟨S2x128x512, .f32⟩
  | .hbm, ⟨1, _⟩ => ⟨S2x512x512, .f32⟩
  | .hbm, ⟨2, _⟩ => ⟨S512x512, .f32⟩
  | .hbm, ⟨3, _⟩ => ⟨S512, .f32⟩
  | .hbm, ⟨4, _⟩ => ⟨S512x1024, .f32⟩
  | .hbm, ⟨5, _⟩ => ⟨S1024, .f32⟩
  | .hbm, ⟨6, _⟩ => ⟨S2x512x1x512, .f32⟩
  | .hbm, ⟨7, _⟩ => ⟨S2x1x128x512, .f32⟩
  | .hbm, ⟨8, _⟩ => ⟨S2x512x128x512, .f32⟩
  | .hbm, ⟨9, _⟩ => ⟨S2x512x128x512, .f32⟩
  | .hbm, ⟨10, _⟩ => ⟨S2x512x128x512, .f32⟩
  | .hbm, ⟨11, _⟩ => ⟨S2x512x128x512, .f32⟩
  | .hbm, ⟨12, _⟩ => ⟨S1x1x1x512, .f32⟩
  | .hbm, ⟨13, _⟩ => ⟨S2x512x128x512, .f32⟩
  | .hbm, ⟨14, _⟩ => ⟨S2x512x128x512, .f32⟩
  | .hbm, ⟨15, _⟩ => ⟨S2x512x128x1024, .f32⟩
  | .hbm, ⟨16, _⟩ => ⟨S1x1x1x1024, .f32⟩
  | .hbm, ⟨17, _⟩ => ⟨S2x512x128x1024, .f32⟩
  | .hbm, ⟨18, _⟩ => ⟨S2x512x128x1024, .f32⟩
  | _, _ => ⟨S2x128x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩

abbrev nD : Nat := 1
abbrev τ : Topo := Topo.v7x

variable {F : FTy → Type} [FloatOps F]

class Facts₀ : Prop where
  bcast_S2x512x512_S2x512x1x512_0_1_3 : S2x512x512.BroadcastsInDim S2x512x1x512 (![0, 1, 3] : Fin 3 → Fin S2x512x1x512.rank)
  bcast_S2x128x512_S2x1x128x512_0_2_3 : S2x128x512.BroadcastsInDim S2x1x128x512 (![0, 2, 3] : Fin 3 → Fin S2x1x128x512.rank)
  bcast_S2x512x1x512_S2x512x128x512_0_1_2_3 : S2x512x1x512.BroadcastsInDim S2x512x128x512 (![0, 1, 2, 3] : Fin 4 → Fin S2x512x128x512.rank)
  bcast_S2x1x128x512_S2x512x128x512_0_1_2_3 : S2x1x128x512.BroadcastsInDim S2x512x128x512 (![0, 1, 2, 3] : Fin 4 → Fin S2x512x128x512.rank)
  bcast_S512_S1x1x1x512_3 : S512.BroadcastsInDim S1x1x1x512 (![3] : Fin 1 → Fin S1x1x1x512.rank)
  bcast_S1x1x1x512_S2x512x128x512_0_1_2_3 : S1x1x1x512.BroadcastsInDim S2x512x128x512 (![0, 1, 2, 3] : Fin 4 → Fin S2x512x128x512.rank)
  bcast_S1024_S1x1x1x1024_3 : S1024.BroadcastsInDim S1x1x1x1024 (![3] : Fin 1 → Fin S1x1x1x1024.rank)
  bcast_S1x1x1x1024_S2x512x128x1024_0_1_2_3 : S1x1x1x1024.BroadcastsInDim S2x512x128x1024 (![0, 1, 2, 3] : Fin 4 → Fin S2x512x128x1024.rank)
  dot_S2x512x128x512_S512x512_S2x512x128x512_3_0_012_1_n_n_wf : DotDims.WF S2x512x128x512 S512x512 S2x512x128x512 [3] [0] [0, 1, 2] [1] [] []
  dot_S2x512x128x512_S512x1024_S2x512x128x1024_3_0_012_1_n_n_wf : DotDims.WF S2x512x128x512 S512x1024 S2x512x128x1024 [3] [0] [0, 1, 2] [1] [] []

variable [Facts₀]

def dot_S2x512x128x512_S512x512_S2x512x128x512_3_0_012_1_n_n : DotDims S2x512x128x512 S512x512 S2x512x128x512 where
  lhsContracting := [3]
  rhsContracting := [0]
  lhsNonContracting := [0, 1, 2]
  rhsNonContracting := [1]
  lhsBatch := []
  rhsBatch := []
  wf := dot_S2x512x128x512_S512x512_S2x512x128x512_3_0_012_1_n_n_wf
def dot_S2x512x128x512_S512x1024_S2x512x128x1024_3_0_012_1_n_n : DotDims S2x512x128x512 S512x1024 S2x512x128x1024 where
  lhsContracting := [3]
  rhsContracting := [0]
  lhsNonContracting := [0, 1, 2]
  rhsNonContracting := [1]
  lhsBatch := []
  rhsBatch := []
  wf := dot_S2x512x128x512_S512x1024_S2x512x128x1024_3_0_012_1_n_n_wf

class Facts : Prop extends Facts₀ where

variable [Facts]
-- ==== Proof.JointSpec.lean ====
/-
  The joint network as one function of its six argument arrays, over the extended reals.

  For a batch b, an encoder frame t, a prediction step u and an output channel v,

    hidden b t u h  =  Σ_d (enc[b, t, d] + pred[b, u, d]) · W0[d, h]  +  b0[h]
    logits[b, t, u, v]  =  Σ_h hidden b t u h · W1[h, v]  +  b1[v]

  — a broadcast sum of the two activations, then two dense layers.  Every float is an extended real
  and every operation the exact one, so a rounding to a narrower format on the way into a product is
  the identity, and a matrix product is the plain finite sum written here, in the order of its index.
  Both programs of the certificate compute exactly this function, index by index; no law of arithmetic
  beyond the definition of a sum is needed to see it, and none that fails at an infinity.
-/
import Idealize.ShloMosaic.PureOps.Ideal
import Idealize.ShloMosaic.Lib.ValueIdx

noncomputable section

namespace Cert.Joint

open Idealize.ShloMosaic Idealize.ShloMosaic.ValueIdx

/-- The first dense layer at (b, t, u, h): the sum over the feature axis d of
    (enc[b, t, d] + pred[b, u, d]) · W0[d, h], plus the bias b0[h]. -/
def hidden (pred : FVec Ideal ⟨3, ![2, 128, 512]⟩ .f32) (enc : FVec Ideal ⟨3, ![2, 512, 512]⟩ .f32)
    (W0 : FVec Ideal ⟨2, ![512, 512]⟩ .f32) (b0 : FVec Ideal ⟨1, ![512]⟩ .f32)
    (b : Fin 2) (t : Fin 512) (u : Fin 128) (h : Fin 512) : EReal :=
  (∑ d : Fin 512, (enc (ix3 b t d) + pred (ix3 b u d)) * W0 (ix2 d h)) + b0 (ix1 h)

/-- The second dense layer on top of the first, at (b, t, u, v): the sum over the hidden axis h of
    hidden b t u h · W1[h, v], plus the bias b1[v] — written over explicit coordinates. -/
def logitsAt (pred : FVec Ideal ⟨3, ![2, 128, 512]⟩ .f32) (enc : FVec Ideal ⟨3, ![2, 512, 512]⟩ .f32)
    (W0 : FVec Ideal ⟨2, ![512, 512]⟩ .f32) (b0 : FVec Ideal ⟨1, ![512]⟩ .f32)
    (W1 : FVec Ideal ⟨2, ![512, 1024]⟩ .f32) (b1 : FVec Ideal ⟨1, ![1024]⟩ .f32)
    (b : Fin 2) (t : Fin 512) (u : Fin 128) (v : Fin 1024) : EReal :=
  (∑ h : Fin 512, hidden pred enc W0 b0 b t u h * W1 (ix2 h v)) + b1 (ix1 v)

/-- The whole result array [2, 512, 128, 1024] as a function of the six argument arrays. -/
def logits (pred : FVec Ideal ⟨3, ![2, 128, 512]⟩ .f32) (enc : FVec Ideal ⟨3, ![2, 512, 512]⟩ .f32)
    (W0 : FVec Ideal ⟨2, ![512, 512]⟩ .f32) (b0 : FVec Ideal ⟨1, ![512]⟩ .f32)
    (W1 : FVec Ideal ⟨2, ![512, 1024]⟩ .f32) (b1 : FVec Ideal ⟨1, ![1024]⟩ .f32) :
    FVec Ideal ⟨4, ![2, 512, 128, 1024]⟩ .f32 :=
  fun i => logitsAt pred enc W0 b0 W1 b1 (i 0) (i 1) (i 2) (i 3)

/-- The array read at an index given by its four coordinates. -/
theorem logits_ix4 (pred : FVec Ideal ⟨3, ![2, 128, 512]⟩ .f32) (enc : FVec Ideal ⟨3, ![2, 512, 512]⟩ .f32)
    (W0 : FVec Ideal ⟨2, ![512, 512]⟩ .f32) (b0 : FVec Ideal ⟨1, ![512]⟩ .f32)
    (W1 : FVec Ideal ⟨2, ![512, 1024]⟩ .f32) (b1 : FVec Ideal ⟨1, ![1024]⟩ .f32)
    (b : Fin 2) (t : Fin 512) (u : Fin 128) (v : Fin 1024) :
    logits pred enc W0 b0 W1 b1 (ix4 b t u v) = logitsAt pred enc W0 b0 W1 b1 b t u v := rfl

end Cert.Joint

end
-- ==== Proof.RefValue.lean ====
/-
  The reference computes the joint network's function.

  jnp's reference broadcasts the encoder frames over the prediction steps and the prediction steps over
  the frames, adds them, and applies the two dense layers as two contractions of the last axis with a
  bias broadcast along it.  Read at (b, t, u, v), operation by operation: the last addition is the
  second contraction at (b, t, u, v) plus b1[v]; the contraction is the sum over h of the first layer at
  (b, t, u, h) times W1[h, v]; the first layer is the sum over d of (enc[b, t, d] + pred[b, u, d]) · W0[d, h]
  plus b0[h].  That is the joint network's function, term for term.
-/
import proofs.«150249_j14216341749903_1_alg».proof.Proof.Gen.ReferenceIdeal.Read
import proofs.«150249_j14216341749903_1_alg».proof.Proof.JointSpec

noncomputable section

namespace Cert.ReferenceIdeal.RefValue

open Idealize.ShloMosaic Idealize.ShloMosaic.ValueIdx Cert.ReferenceIdeal Cert.ReferenceIdeal.Read

/-! ## The operand indices of each operation, in coordinates -/

theorem lhs_second (b : Fin 2) (t : Fin 512) (u : Fin 128) (v : Fin 1024) (h : Fin 512) :
    lidx_main_v9 (ix4 b t u v) h = ix4 b t u h :=
  funext fun a => Fin.ext (by match a with | ⟨0, _⟩ => rfl | ⟨1, _⟩ => rfl | ⟨2, _⟩ => rfl | ⟨3, _⟩ => rfl)

theorem rhs_second (b : Fin 2) (t : Fin 512) (u : Fin 128) (v : Fin 1024) (h : Fin 512) :
    ridx_main_v9 (ix4 b t u v) h = ix2 h v :=
  funext fun a => Fin.ext (by match a with | ⟨0, _⟩ => rfl | ⟨1, _⟩ => rfl)

theorem bias_second (b : Fin 2) (t : Fin 512) (u : Fin 128) (v : Fin 1024) :
    idx_main_v10 (idx_main_v11 (ix4 b t u v)) = ix1 v :=
  funext fun a => Fin.ext (by match a with | ⟨0, _⟩ => rfl)

theorem lhs_first (b : Fin 2) (t : Fin 512) (u : Fin 128) (h : Fin 512) (d : Fin 512) :
    lidx_main_v5 (ix4 b t u h) d = ix4 b t u d :=
  funext fun a => Fin.ext (by match a with | ⟨0, _⟩ => rfl | ⟨1, _⟩ => rfl | ⟨2, _⟩ => rfl | ⟨3, _⟩ => rfl)

theorem rhs_first (b : Fin 2) (t : Fin 512) (u : Fin 128) (h : Fin 512) (d : Fin 512) :
    ridx_main_v5 (ix4 b t u h) d = ix2 d h :=
  funext fun a => Fin.ext (by match a with | ⟨0, _⟩ => rfl | ⟨1, _⟩ => rfl)

theorem bias_first (b : Fin 2) (t : Fin 512) (u : Fin 128) (h : Fin 512) :
    idx_main_v6 (idx_main_v7 (ix4 b t u h)) = ix1 h :=
  funext fun a => Fin.ext (by match a with | ⟨0, _⟩ => rfl)

theorem frame_row (b : Fin 2) (t : Fin 512) (u : Fin 128) (d : Fin 512) :
    idx_main_v0 (idx_main_v2 (ix4 b t u d)) = ix3 b t d :=
  funext fun a => Fin.ext (by match a with | ⟨0, _⟩ => rfl | ⟨1, _⟩ => rfl | ⟨2, _⟩ => rfl)

theorem step_row (b : Fin 2) (t : Fin 512) (u : Fin 128) (d : Fin 512) :
    idx_main_v1 (idx_main_v3 (ix4 b t u d)) = ix3 b u d :=
  funext fun a => Fin.ext (by match a with | ⟨0, _⟩ => rfl | ⟨1, _⟩ => rfl | ⟨2, _⟩ => rfl)

/-! ## The reference's result, read at an index -/

/-- The first dense layer of the reference at (b, t, u, h) is `Joint.hidden`. -/
theorem first_layer (x0 : FVec Ideal S2x128x512 .f32) (x1 : FVec Ideal S2x512x512 .f32) (x2 : FVec Ideal S512x512 .f32) (x3 : FVec Ideal S512 .f32)
    (b : Fin 2) (t : Fin 512) (u : Fin 128) (h : Fin 512) :
    val_main_v8 (F := Ideal) x0 x1 x2 x3 (ix4 b t u h) = Cert.Joint.hidden x0 x1 x2 x3 b t u h := by
  rw [val_main_v8_apply, val_main_v5_apply, val_main_v7_apply, val_main_v6_apply, bias_first]
  refine congrArg (· + x3 (ix1 h)) (Finset.sum_congr rfl fun d _ => ?_)
  rw [lhs_first, rhs_first, val_main_v4_apply, val_main_v2_apply, val_main_v0_apply, val_main_v3_apply, val_main_v1_apply, frame_row, step_row]
  rfl

/-- THE REFERENCE IS THE JOINT NETWORK: its result term, as a function of the six argument arrays, is
    `Joint.logits` of them. -/
theorem result_eq (x0 : FVec Ideal S2x128x512 .f32) (x1 : FVec Ideal S2x512x512 .f32) (x2 : FVec Ideal S512x512 .f32) (x3 : FVec Ideal S512 .f32)
    (x4 : FVec Ideal S512x1024 .f32) (x5 : FVec Ideal S1024 .f32) :
    val_main_v12 (F := Ideal) x0 x1 x2 x3 x4 x5 = Cert.Joint.logits x0 x1 x2 x3 x4 x5 := by
  funext i
  obtain ⟨b, t, u, v, rfl⟩ : ∃ (b : Fin 2) (t : Fin 512) (u : Fin 128) (v : Fin 1024), i = ix4 b t u v :=
    ⟨i 0, i 1, i 2, i 3, eq_ix4 i⟩
  rw [Cert.Joint.logits_ix4, val_main_v12_apply, val_main_v9_apply, val_main_v11_apply, val_main_v10_apply, bias_second]
  refine congrArg (· + x5 (ix1 v)) (Finset.sum_congr rfl fun h _ => ?_)
  rw [lhs_second, rhs_second, first_layer]

end Cert.ReferenceIdeal.RefValue

end
-- ==== Proof.LibPlainDot.lean ====
/-
  A plain matrix product read at an index, generic in the three extents.

  For the dimension numbers "rows × contraction times contraction × columns" (`DotDims.plain M K N`:
  no batch axis, the left operand contracted on its last axis, the right on its first), at the ideal
  values — floats extended reals, every operation exact — a `tpu.matmul` into the zero accumulator, read
  at the output index (r, c), is the plain sum over k of lhs (r, k) · rhs (k, c): no rounding and no
  chunk order is left in it.  The contraction index, a one-axis multi-index, is re-indexed by its one
  coordinate.
-/
import Idealize.ShloMosaic.Lib.ValueIdx
import Idealize.ShloMosaic.PureOps.Ideal.Laws

noncomputable section

namespace Cert.Lib.PlainDot

open Idealize.ShloMosaic Idealize.ShloMosaic.ValueIdx

variable {M K N : Nat}

/-- The left operand's index at output index (r, c) and contraction position k is (r, k). -/
theorem lhsIdx_plain (r : Fin M) (c : Fin N) (k : Fin K) :
    (DotDims.plain M K N).lhsIdx (ix2 r c) ((contrEquiv1 (DotDims.plain M K N) K rfl rfl).symm k) = ix2 r k := by
  have hk := contrEquiv1_symm_val (DotDims.plain M K N) K rfl rfl k
  exact funext fun a => Fin.ext (by
    match a with
    | ⟨0, _⟩ => rfl
    | ⟨1, _⟩ => exact ((DotDims.plain M K N).lhsIdx_val_of_single rfl _ _).trans hk)

/-- The right operand's index at output index (r, c) and contraction position k is (k, c). -/
theorem rhsIdx_plain (r : Fin M) (c : Fin N) (k : Fin K) :
    (DotDims.plain M K N).rhsIdx (ix2 r c) ((contrEquiv1 (DotDims.plain M K N) K rfl rfl).symm k) = ix2 k c := by
  have hk := contrEquiv1_symm_val (DotDims.plain M K N) K rfl rfl k
  exact funext fun a => Fin.ext (by
    match a with
    | ⟨0, _⟩ => exact ((DotDims.plain M K N).rhsIdx_val_of_single rfl _ _).trans hk
    | ⟨1, _⟩ => rfl)

/-- A plain `tpu.matmul` into the zero accumulator, at the ideal values, read at (r, c):
    the sum over k of lhs (r, k) · rhs (k, c). -/
theorem matmul_plain_zero_apply {φ₁ φ₂ : FTy} (prec : Option ContractPrecision)
    (lhs : FVec Ideal ⟨2, ![M, K]⟩ φ₁) (rhs : FVec Ideal ⟨2, ![K, N]⟩ φ₂) (r : Fin M) (c : Fin N) :
    matmul (DotDims.plain M K N) prec lhs rhs (constant (F := Ideal) ⟨2, ![M, N]⟩ .f32 0x00000000#32) (ix2 r c)
      = ∑ k : Fin K, lhs (ix2 r k) * rhs (ix2 k c) := by
  show FloatOps.matmul (DotDims.plain M K N) prec lhs rhs (constant (F := Ideal) ⟨2, ![M, N]⟩ .f32 0x00000000#32) (ix2 r c) = _
  rw [Ideal.matmul_constant_zero_apply, ← Equiv.sum_comp (contrEquiv1 (DotDims.plain M K N) K rfl rfl).symm]
  refine Finset.sum_congr rfl fun k _ => ?_
  rw [lhsIdx_plain, rhsIdx_plain]

end Cert.Lib.PlainDot

end
-- ==== Proof.BlockValue.lean ====
/-
  What one grid point computes: the kernel body's stored value read at an index.

  A grid point holds eight encoder frames t and all 128 prediction steps u of one batch.  The body adds
  frame t's feature row to step u's feature row for every pair (t, u), lays the 8 · 128 sums out as the
  rows of one matrix — row t · 128 + u —, multiplies that matrix by W0, adds b0 along the rows, multiplies
  by W1, adds b1, and cuts the 1024 rows back into (t, u).  Read at (t, u, v) the stored value is therefore
  Σ_h (Σ_d (enc[t, d] + pred[u, d]) · W0[d, h] + b0[h]) · W1[h, v] + b1[v] over the loaded blocks: a change
  of float format is the identity on extended reals, and a product into the zero accumulator is the plain
  sum over the contracted axis.
-/
import proofs.«150249_j14216341749903_1_alg».proof.Proof.Gen.KernelIdeal.Skeleton
import proofs.«150249_j14216341749903_1_alg».proof.Proof.LibPlainDot
import Idealize.ShloMosaic.Lib.Pipeline.Value
import Idealize.ShloMosaic.Lib.ValueLayout

noncomputable section

namespace Cert.KernelIdeal.BlockValue

open Idealize.ShloMosaic Idealize.ShloMosaic.ValueIdx Cert.KernelIdeal Cert.KernelIdeal.Gen Cert.Lib.PlainDot

/-- The row of the flattened matrix that holds the pair (t, u): t · 128 + u. -/
def row (t : Fin 8) (u : Fin 128) : Fin 1024 := ⟨t.val * 128 + u.val, by have := t.isLt; have := u.isLt; omega⟩

/-! ## The layout operations of the body, each read at an index -/

section Layout
variable {α : Type}

/-- [8, 128, 512] flattened to [1024, 512]: row t · 128 + u is the pair (t, u). -/
theorem flatten512_apply (x : S8x128x512.Idx → α) (h : S8x128x512.ShapeCasts S1024x512) (t : Fin 8) (u : Fin 128) (d : Fin 512) :
    shapeCast S1024x512 x h (ix2 (row t u) d) = x (ix3 t u d) :=
  shapeCast_apply x h _ _ (by
    rw [Shape.rowMajor_val_three, Shape.rowMajor_val_two]
    rfl)

/-- [1024, 1024] cut back to [8, 128, 1024]: the pair (t, u) is row t · 128 + u. -/
theorem unflatten1024_apply (x : S1024x1024.Idx → α) (h : S1024x1024.ShapeCasts S8x128x1024) (t : Fin 8) (u : Fin 128) (v : Fin 1024) :
    shapeCast S8x128x1024 x h (ix3 t u v) = x (ix2 (row t u) v) :=
  shapeCast_apply x h _ _ (by
    rw [Shape.rowMajor_val_three, Shape.rowMajor_val_two]
    rfl)

/-- [8, 512] given a unit middle axis: (t, 0, d) reads (t, d). -/
theorem addMiddleUnit_apply (x : S8x512.Idx → α) (h : S8x512.ShapeCasts S8x1x512) (t : Fin 8) (z : Fin 1) (d : Fin 512) :
    shapeCast S8x1x512 x h (ix3 t z d) = x (ix2 t d) :=
  shapeCast_apply x h _ _ (by
    have hz : z.val = 0 := by omega
    rw [Shape.rowMajor_val_three, Shape.rowMajor_val_two]
    show t.val * 512 + d.val = (t.val * 1 + z.val) * 512 + d.val
    rw [hz, Nat.mul_one, Nat.add_zero])

/-- A frame's row repeated for every prediction step: [8, 1, 512] broadcast to [8, 128, 512]. -/
theorem overSteps_apply (x : S8x1x512.Idx → α) (h : S8x1x512.Broadcasts S8x128x512) (t : Fin 8) (u : Fin 128) (d : Fin 512) :
    broadcastTo S8x128x512 x h (ix3 t u d) = x (ix3 t (0 : Fin 1) d) := by
  refine broadcastTo_apply x h (ix3 t u d) (ix3 t (0 : Fin 1) d) fun a => ?_
  match a with
  | ⟨0, _⟩ => show t.val = if (8 : Nat) = 1 then 0 else t.val; rw [if_neg (by decide)]
  | ⟨1, _⟩ => show 0 = if (1 : Nat) = 1 then 0 else u.val; rw [if_pos rfl]
  | ⟨2, _⟩ => show d.val = if (512 : Nat) = 1 then 0 else d.val; rw [if_neg (by decide)]

/-- A prediction step's row repeated for every frame: [1, 128, 512] broadcast to [8, 128, 512]. -/
theorem overFrames_apply (x : S1x128x512.Idx → α) (h : S1x128x512.Broadcasts S8x128x512) (t : Fin 8) (u : Fin 128) (d : Fin 512) :
    broadcastTo S8x128x512 x h (ix3 t u d) = x (ix3 (0 : Fin 1) u d) := by
  refine broadcastTo_apply x h (ix3 t u d) (ix3 (0 : Fin 1) u d) fun a => ?_
  match a with
  | ⟨0, _⟩ => show 0 = if (1 : Nat) = 1 then 0 else t.val; rw [if_pos rfl]
  | ⟨1, _⟩ => show u.val = if (128 : Nat) = 1 then 0 else u.val; rw [if_neg (by decide)]
  | ⟨2, _⟩ => show d.val = if (512 : Nat) = 1 then 0 else d.val; rw [if_neg (by decide)]

end Layout

/-! ## The body's three stages -/

/-- The 1024 × 512 matrix of sums: row t · 128 + u is frame t's feature row plus step u's. -/
def pairSums (x0 : Vec Ideal S1x8x512 .f32) (x1 : Vec Ideal S1x128x512 .f32) : FVec Ideal S1024x512 .f32 :=
  shapeCast S1024x512
    (addf (broadcastTo S8x128x512 (shapeCast S8x1x512 (shapeCast S8x512 x0 shapeCasts_S1x8x512_S8x512) shapeCasts_S8x512_S8x1x512) broadcasts_S8x1x512_S8x128x512)
      (broadcastTo S8x128x512 (shapeCast S1x128x512 (shapeCast S128x512 x1 shapeCasts_S1x128x512_S128x512) shapeCasts_S128x512_S1x128x512) broadcasts_S1x128x512_S8x128x512))
    shapeCasts_S8x128x512_S1024x512

/-- The first dense layer on the block: the sums times W0, plus b0 along the rows. -/
def hiddenRows (x0 : Vec Ideal S1x8x512 .f32) (x1 : Vec Ideal S1x128x512 .f32) (x2 : Vec Ideal S512x512 .f32) (x3 : Vec Ideal S1x512 .f32) :
    FVec Ideal S1024x512 .f32 :=
  addf (matmul dot_S1024x512_S512x512_S1024x512_1_0_0_1_n_n none (truncf .bf16 (pairSums x0 x1) bitsLt_bf16_f32) (truncf .bf16 x2 bitsLt_bf16_f32)
      (constant S1024x512 .f32 0x00000000#32))
    (broadcastTo S1024x512 (shapeCast S1x512 (shapeCast S512 x3 shapeCasts_S1x512_S512) shapeCasts_S512_S1x512) broadcasts_S1x512_S1024x512)

/-- The second dense layer on the block: the hidden rows times W1, plus b1 along the rows. -/
def logitRows (x0 : Vec Ideal S1x8x512 .f32) (x1 : Vec Ideal S1x128x512 .f32) (x2 : Vec Ideal S512x512 .f32) (x3 : Vec Ideal S1x512 .f32)
    (x4 : Vec Ideal S512x1024 .f32) (x5 : Vec Ideal S1x1024 .f32) : FVec Ideal S1024x1024 .f32 :=
  addf (matmul dot_S1024x512_S512x1024_S1024x1024_1_0_0_1_n_n none (truncf .bf16 (hiddenRows x0 x1 x2 x3) bitsLt_bf16_f32) (truncf .bf16 x4 bitsLt_bf16_f32)
      (constant S1024x1024 .f32 0x00000000#32))
    (broadcastTo S1024x1024 (shapeCast S1x1024 (shapeCast S1024 x5 shapeCasts_S1x1024_S1024) shapeCasts_S1024_S1x1024) broadcasts_S1x1024_S1024x1024)

/-- The stored value is the logit rows cut back into [1, 8, 128, 1024]. -/
theorem stored_eq (x0 : Vec Ideal S1x8x512 .f32) (x1 : Vec Ideal S1x128x512 .f32) (x2 : Vec Ideal S512x512 .f32) (x3 : Vec Ideal S1x512 .f32)
    (x4 : Vec Ideal S512x1024 .f32) (x5 : Vec Ideal S1x1024 .f32) :
    k0_pay1 (F := Ideal) x0 x1 x2 x3 x4 x5
      = shapeCast S1x8x128x1024 (shapeCast S8x128x1024 (logitRows x0 x1 x2 x3 x4 x5) shapeCasts_S1024x1024_S8x128x1024) shapeCasts_S8x128x1024_S1x8x128x1024 := rfl

/-! ## Each stage read at an index -/

/-- Row (t, u) of the sums at feature d. -/
theorem pairSums_apply (x0 : Vec Ideal S1x8x512 .f32) (x1 : Vec Ideal S1x128x512 .f32) (t : Fin 8) (u : Fin 128) (d : Fin 512) :
    pairSums x0 x1 (ix2 (row t u) d) = x0 (ix3 (0 : Fin 1) t d) + x1 (ix3 (0 : Fin 1) u d) := by
  unfold pairSums
  rw [flatten512_apply, addf_apply, overSteps_apply, overFrames_apply, addMiddleUnit_apply, shapeCast_1ab_ab_apply, shapeCast_shapeCast]

/-- Row (t, u) of the hidden layer at h. -/
theorem hiddenRows_apply (x0 : Vec Ideal S1x8x512 .f32) (x1 : Vec Ideal S1x128x512 .f32) (x2 : Vec Ideal S512x512 .f32) (x3 : Vec Ideal S1x512 .f32)
    (t : Fin 8) (u : Fin 128) (h : Fin 512) :
    hiddenRows x0 x1 x2 x3 (ix2 (row t u) h)
      = (∑ d : Fin 512, (x0 (ix3 (0 : Fin 1) t d) + x1 (ix3 (0 : Fin 1) u d)) * x2 (ix2 d h)) + x3 (ix2 (0 : Fin 1) h) := by
  unfold hiddenRows
  rw [addf_apply, broadcastTo_1b_ab_apply, shapeCast_shapeCast]
  refine congrArg (· + x3 (ix2 (0 : Fin 1) h)) ?_
  refine (matmul_plain_zero_apply (M := 1024) (K := 512) (N := 512) none _ _ (row t u) h).trans ?_
  refine Finset.sum_congr rfl fun d _ => ?_
  rw [truncf_apply, truncf_apply, pairSums_apply]

/-- Row (t, u) of the logits at v. -/
theorem logitRows_apply (x0 : Vec Ideal S1x8x512 .f32) (x1 : Vec Ideal S1x128x512 .f32) (x2 : Vec Ideal S512x512 .f32) (x3 : Vec Ideal S1x512 .f32)
    (x4 : Vec Ideal S512x1024 .f32) (x5 : Vec Ideal S1x1024 .f32) (t : Fin 8) (u : Fin 128) (v : Fin 1024) :
    logitRows x0 x1 x2 x3 x4 x5 (ix2 (row t u) v)
      = (∑ h : Fin 512, ((∑ d : Fin 512, (x0 (ix3 (0 : Fin 1) t d) + x1 (ix3 (0 : Fin 1) u d)) * x2 (ix2 d h)) + x3 (ix2 (0 : Fin 1) h)) * x4 (ix2 h v))
        + x5 (ix2 (0 : Fin 1) v) := by
  unfold logitRows
  rw [addf_apply, broadcastTo_1b_ab_apply, shapeCast_shapeCast]
  refine congrArg (· + x5 (ix2 (0 : Fin 1) v)) ?_
  refine (matmul_plain_zero_apply (M := 1024) (K := 512) (N := 1024) none _ _ (row t u) v).trans ?_
  refine Finset.sum_congr rfl fun h _ => ?_
  rw [truncf_apply, truncf_apply, hiddenRows_apply]

/-- THE STORED VALUE AT AN INDEX: at (0, t, u, v) of the output block, the two dense layers of the sum of
    frame t's and step u's feature rows, over the six loaded blocks. -/
theorem stored_apply (x0 : Vec Ideal S1x8x512 .f32) (x1 : Vec Ideal S1x128x512 .f32) (x2 : Vec Ideal S512x512 .f32) (x3 : Vec Ideal S1x512 .f32)
    (x4 : Vec Ideal S512x1024 .f32) (x5 : Vec Ideal S1x1024 .f32) (z : Fin 1) (t : Fin 8) (u : Fin 128) (v : Fin 1024) :
    k0_pay1 (F := Ideal) x0 x1 x2 x3 x4 x5 (ix4 z t u v)
      = (∑ h : Fin 512, ((∑ d : Fin 512, (x0 (ix3 (0 : Fin 1) t d) + x1 (ix3 (0 : Fin 1) u d)) * x2 (ix2 d h)) + x3 (ix2 (0 : Fin 1) h)) * x4 (ix2 h v))
        + x5 (ix2 (0 : Fin 1) v) := by
  rw [stored_eq, shapeCast_abc_1abc_apply, unflatten1024_apply, logitRows_apply]

end Cert.KernelIdeal.BlockValue

end
-- ==== Proof.KernelValue.lean ====
/-
  The kernel's result array is the joint network's function of the argument arrays.

  The grid has one point per batch b and per group of eight encoder frames.  At the point (b, g) the
  pipeline stages frames 8g … 8g + 7 of batch b, all 128 prediction steps of batch b, both weight matrices
  and both biases whole, and writes back the block [b, 8g … 8g + 7, all steps, all channels] of the
  result.  Element (f, u, v) of what it writes back is the two dense layers applied to frame 8g + f's
  feature row plus step u's — the joint network's function at (b, 8g + f, u, v).  The blocks of the 128
  points tile the result array, frame 8g + f lying in group g, so the array ends as that function
  everywhere.  The biases reach the kernel as one-row matrices, reshaped on the host: row 0 of each is
  the bias vector.
-/
import proofs.«150249_j14216341749903_1_alg».proof.Proof.Gen.KernelIdeal.Value
import proofs.«150249_j14216341749903_1_alg».proof.Proof.BlockValue
import proofs.«150249_j14216341749903_1_alg».proof.Proof.JointSpec
import Idealize.ShloMosaic.Lib.StableHlo.Run
import Idealize.ShloMosaic.Lib.ValueLayout

noncomputable section

namespace Cert.KernelIdeal.KernelValue

open Cert.KernelIdeal Cert.KernelIdeal.Gen Idealize.ShloMosaic Idealize.ShloMosaic.TcCoe Idealize.SL.Sem
open Idealize.ShloMosaic.ValueIdx Idealize.ShloMosaic.StableHlo
open Idealize.ShloMosaic.Pipeline (Dat)

variable (m : (ℓ : Loc nD τ sig) → Buf (Elt Ideal) ℓ) (ρ : Dev nD → PrngReg)

theorem zeros2 : (![0, 0] : Fin 2 → Nat) = fun _ => 0 := funext fun a => by fin_cases a <;> rfl
theorem zeros3 : (![0, 0, 0] : Fin 3 → Nat) = fun _ => 0 := funext fun a => by fin_cases a <;> rfl
theorem zeros4 : (![0, 0, 0, 0] : Fin 4 → Nat) = fun _ => 0 := funext fun a => by fin_cases a <;> rfl

/-! ## The biases as the region finds them -/

/-- The one-row matrix the host makes of b0 holds b0 in its row. -/
theorem bias0_row (c : Dev nD) (z : Fin 1) (h : Fin 512) :
    V m c main_v0 (ix2 z h) = V m c main_arg3 (ix1 h) := by
  have e : (V m c main_v0 : S1x512.Idx → EReal) = shapeCast S1x512 (m ((c : Thread nD τ).loc main_arg3)) shapeCasts_S512_S1x512 := by
    dsimp only [Gen.V, Gen.hostOps0]; after_results; rfl
  rw [e, shapeCast_a_1a_apply, V_main_arg3]

/-- The one-row matrix the host makes of b1 holds b1 in its row. -/
theorem bias1_row (c : Dev nD) (z : Fin 1) (v : Fin 1024) :
    V m c main_v1 (ix2 z v) = V m c main_arg5 (ix1 v) := by
  have e : (V m c main_v1 : S1x1024.Idx → EReal) = shapeCast S1x1024 (m ((c : Thread nD τ).loc main_arg5)) shapeCasts_S1024_S1x1024 := by
    dsimp only [Gen.V, Gen.hostOps0]; after_results; rfl
  rw [e, shapeCast_a_1a_apply, V_main_arg5]

/-! ## Where each window's block sits, decided over the 128 grid points -/

/-- The frames' window moves with the output's on the batch and frame-group axes, the steps' window on
    the batch axis; every other block index is zero; the output's batch index is below 2 and its
    frame-group index below 64. -/
theorem block_indices : ∀ t : Fin cfg0.N,
    win0_0.index t (0 : Fin 3) = win0_6.index t (0 : Fin 4) ∧ win0_0.index t (1 : Fin 3) = win0_6.index t (1 : Fin 4)
    ∧ win0_0.index t (2 : Fin 3) = 0
    ∧ win0_1.index t (0 : Fin 3) = win0_6.index t (0 : Fin 4) ∧ win0_1.index t (1 : Fin 3) = 0 ∧ win0_1.index t (2 : Fin 3) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (2 : Fin 4) = 0 ∧ win0_6.index t (3 : Fin 4) = 0
    ∧ win0_6.index t (0 : Fin 4) ≤ 1 ∧ win0_6.index t (1 : Fin 4) ≤ 63 :=
  (by decide +kernel : ∀ t : Fin grid0.N, _)

/-- Every (batch, frame group) is some grid point's. -/
theorem block_onto : ∀ (q0 : Fin 2) (q1 : Fin 64), ∃ t : Fin cfg0.N, win0_6.index t = ![q0.val, q1.val, 0, 0] :=
  (by decide +kernel : ∀ (q0 : Fin 2) (q1 : Fin 64), ∃ t : Fin grid0.N, win0_6.index t = ![q0.val, q1.val, 0, 0])

/-! ## The staged blocks read at an index -/

/-- Frame f of the staged frames is frame T of batch B of the encoder array, when the block sits there. -/
theorem frames_read (c : Dev nD) (t : Fin cfg0.N) (f : Fin 8) (d : Fin 512) (B : Fin 2) (T : Fin 512)
    (hB : win0_0.index t (0 : Fin 3) = B.val) (hT : win0_0.index t (1 : Fin 3) * 8 + f.val = T.val) (h2 : win0_0.index t (2 : Fin 3) = 0) :
    iblk m c 0 t (ix3 (0 : Fin 1) f d) = V m c main_arg1 (ix3 B T d) := by
  show V m c main_arg1 (((cfg0.win 0).blk t).view.emb (ix3 (0 : Fin 1) f d)) = _
  refine congrArg (V m c main_arg1) (funext fun a => Fin.ext ?_)
  match a with
  | ⟨0, _⟩ => show win0_0.index t (0 : Fin 3) * 1 + 1 * 0 = B.val; omega
  | ⟨1, _⟩ => show win0_0.index t (1 : Fin 3) * 8 + 1 * f.val = T.val; omega
  | ⟨2, _⟩ => show win0_0.index t (2 : Fin 3) * 512 + 1 * d.val = d.val; omega

/-- Step u of the staged steps is step u of batch B of the prediction array. -/
theorem steps_read (c : Dev nD) (t : Fin cfg0.N) (u : Fin 128) (d : Fin 512) (B : Fin 2)
    (hB : win0_1.index t (0 : Fin 3) = B.val) (h1 : win0_1.index t (1 : Fin 3) = 0) (h2 : win0_1.index t (2 : Fin 3) = 0) :
    iblk m c 1 t (ix3 (0 : Fin 1) u d) = V m c main_arg0 (ix3 B u d) := by
  show V m c main_arg0 (((cfg0.win 1).blk t).view.emb (ix3 (0 : Fin 1) u d)) = _
  refine congrArg (V m c main_arg0) (funext fun a => Fin.ext ?_)
  match a with
  | ⟨0, _⟩ => show win0_1.index t (0 : Fin 3) * 1 + 1 * 0 = B.val; omega
  | ⟨1, _⟩ => show win0_1.index t (1 : Fin 3) * 128 + 1 * u.val = u.val; omega
  | ⟨2, _⟩ => show win0_1.index t (2 : Fin 3) * 512 + 1 * d.val = d.val; omega

/-- The staged first weight matrix is the whole of W0. -/
theorem w0_read (c : Dev nD) (t : Fin cfg0.N) (d : Fin 512) (h : Fin 512)
    (h0 : win0_2.index t (0 : Fin 2) = 0) (h1 : win0_2.index t (1 : Fin 2) = 0) :
    iblk m c 2 t (ix2 d h) = V m c main_arg2 (ix2 d h) := by
  show V m c main_arg2 (((cfg0.win 2).blk t).view.emb (ix2 d h)) = _
  refine congrArg (V m c main_arg2) (funext fun a => Fin.ext ?_)
  match a with
  | ⟨0, _⟩ => show win0_2.index t (0 : Fin 2) * 512 + 1 * d.val = d.val; omega
  | ⟨1, _⟩ => show win0_2.index t (1 : Fin 2) * 512 + 1 * h.val = h.val; omega

/-- The staged first bias row is b0. -/
theorem b0_read (c : Dev nD) (t : Fin cfg0.N) (h : Fin 512)
    (h0 : win0_3.index t (0 : Fin 2) = 0) (h1 : win0_3.index t (1 : Fin 2) = 0) :
    iblk m c 3 t (ix2 (0 : Fin 1) h) = V m c main_arg3 (ix1 h) := by
  refine Eq.trans ?_ (bias0_row m c (0 : Fin 1) h)
  show V m c main_v0 (((cfg0.win 3).blk t).view.emb (ix2 (0 : Fin 1) h)) = _
  refine congrArg (V m c main_v0) (funext fun a => Fin.ext ?_)
  match a with
  | ⟨0, _⟩ => show win0_3.index t (0 : Fin 2) * 1 + 1 * 0 = 0; omega
  | ⟨1, _⟩ => show win0_3.index t (1 : Fin 2) * 512 + 1 * h.val = h.val; omega

/-- The staged second weight matrix is the whole of W1. -/
theorem w1_read (c : Dev nD) (t : Fin cfg0.N) (h : Fin 512) (v : Fin 1024)
    (h0 : win0_4.index t (0 : Fin 2) = 0) (h1 : win0_4.index t (1 : Fin 2) = 0) :
    iblk m c 4 t (ix2 h v) = V m c main_arg4 (ix2 h v) := by
  show V m c main_arg4 (((cfg0.win 4).blk t).view.emb (ix2 h v)) = _
  refine congrArg (V m c main_arg4) (funext fun a => Fin.ext ?_)
  match a with
  | ⟨0, _⟩ => show win0_4.index t (0 : Fin 2) * 512 + 1 * h.val = h.val; omega
  | ⟨1, _⟩ => show win0_4.index t (1 : Fin 2) * 1024 + 1 * v.val = v.val; omega

/-- The staged second bias row is b1. -/
theorem b1_read (c : Dev nD) (t : Fin cfg0.N) (v : Fin 1024)
    (h0 : win0_5.index t (0 : Fin 2) = 0) (h1 : win0_5.index t (1 : Fin 2) = 0) :
    iblk m c 5 t (ix2 (0 : Fin 1) v) = V m c main_arg5 (ix1 v) := by
  refine Eq.trans ?_ (bias1_row m c (0 : Fin 1) v)
  show V m c main_v1 (((cfg0.win 5).blk t).view.emb (ix2 (0 : Fin 1) v)) = _
  refine congrArg (V m c main_v1) (funext fun a => Fin.ext ?_)
  match a with
  | ⟨0, _⟩ => show win0_5.index t (0 : Fin 2) * 1 + 1 * 0 = 0; omega
  | ⟨1, _⟩ => show win0_5.index t (1 : Fin 2) * 1024 + 1 * v.val = v.val; omega

/-! ## What a point writes back -/

/-- WHAT POINT t WRITES BACK is its block of the joint network's function of the argument arrays as the
    region finds them. -/
theorem flushed_eq (c : Dev nD) (t : Fin cfg0.N) :
    (dats m 0 c).flushed 6 t = ((cfg0.win 6).blk t).view.read (Elt Ideal)
      (Cert.Joint.logits (V m c main_arg0) (V m c main_arg1) (V m c main_arg2) (V m c main_arg3) (V m c main_arg4) (V m c main_arg5)) := by
  rw [Cert.KernelIdeal.Value.flushed6]
  unfold out0_6
  rw [View.canon_unit_zero zeros4]
  simp only [View.ld_unit_zero (S := S1x8x512) zeros3, View.ld_unit_zero (S := S1x128x512) zeros3, View.ld_unit_zero (S := S512x512) zeros2,
    View.ld_unit_zero (S := S1x512) zeros2, View.ld_unit_zero (S := S512x1024) zeros2, View.ld_unit_zero (S := S1x1024) zeros2]
  obtain ⟨e00, e01, e02, e10, e11, e12, e20, e21, e30, e31, e40, e41, e50, e51, e62, e63, hb, hg⟩ := block_indices t
  refine funext fun (j : S1x8x128x1024.Idx) => ?_
  obtain ⟨z, f, u, v, rfl⟩ : ∃ (z : Fin 1) (f : Fin 8) (u : Fin 128) (v : Fin 1024), j = ix4 z f u v :=
    ⟨j 0, j 1, j 2, j 3, eq_ix4 j⟩
  have hz : z.val = 0 := by omega
  have hf : f.val < 8 := f.isLt
  have hemb : ((cfg0.win 6).blk t).view.emb (ix4 z f u v)
      = ix4 (⟨win0_6.index t (0 : Fin 4), by omega⟩ : Fin 2) (⟨win0_6.index t (1 : Fin 4) * 8 + f.val, by omega⟩ : Fin 512) u v := by
    refine funext fun a => Fin.ext ?_
    match a with
    | ⟨0, _⟩ => show win0_6.index t (0 : Fin 4) * 1 + 1 * z.val = win0_6.index t (0 : Fin 4); omega
    | ⟨1, _⟩ => show win0_6.index t (1 : Fin 4) * 8 + 1 * f.val = win0_6.index t (1 : Fin 4) * 8 + f.val; omega
    | ⟨2, _⟩ => show win0_6.index t (2 : Fin 4) * 128 + 1 * u.val = u.val; omega
    | ⟨3, _⟩ => show win0_6.index t (3 : Fin 4) * 1024 + 1 * v.val = v.val; omega
  show k0_pay1 (F := Ideal) (iblk m c 0 t) (iblk m c 1 t) (iblk m c 2 t) (iblk m c 3 t) (iblk m c 4 t) (iblk m c 5 t) (ix4 z f u v)
    = Cert.Joint.logits (V m c main_arg0) (V m c main_arg1) (V m c main_arg2) (V m c main_arg3) (V m c main_arg4) (V m c main_arg5)
        (((cfg0.win 6).blk t).view.emb (ix4 z f u v))
  rw [hemb, Cert.Joint.logits_ix4]
  refine (Cert.KernelIdeal.BlockValue.stored_apply (iblk m c 0 t) (iblk m c 1 t) (iblk m c 2 t) (iblk m c 3 t) (iblk m c 4 t) (iblk m c 5 t) z f u v).trans ?_
  unfold Cert.Joint.logitsAt Cert.Joint.hidden
  refine congrArg₂ (fun a b : EReal => a + b) (Finset.sum_congr rfl fun h _ => congrArg₂ (fun a b : EReal => a * b)
    (congrArg₂ (fun a b : EReal => a + b) (Finset.sum_congr rfl fun d _ => congrArg₂ (fun a b : EReal => a * b)
      (congrArg₂ (fun a b : EReal => a + b) ?_ ?_) ?_) ?_) ?_) ?_
  · exact frames_read m c t f d _ _ e00 (by rw [e01]) e02
  · exact steps_read m c t u d _ e10 e11 e12
  · exact w0_read m c t d h e20 e21
  · exact b0_read m c t h e30 e31
  · exact w1_read m c t h v e40 e41
  · exact b1_read m c t v e50 e51

/-! ## The blocks tile the result array -/

/-- An index of the array is in point t's block iff each coordinate is in the block's range on its axis. -/
theorem mem_blk (t : Fin cfg0.N) (i : S2x512x128x1024.Idx) :
    i ∈ ((cfg0.win 6).blk t).view.set ↔ ∀ a : Fin 4, win0_6.index t a * S1x8x128x1024.size a ≤ (i a).val
      ∧ (i a).val < win0_6.index t a * S1x8x128x1024.size a + S1x8x128x1024.size a := by
  show i ∈ ((View.whole main_v2).slice (win0_6.rect t)).set ↔ _
  rw [View.set_slice_whole, Rect.mem_set_unit]
  exact Iff.rfl

/-- Every index of the result array is in the block of the point of its batch and its frame's group. -/
theorem covered (i : S2x512x128x1024.Idx) :
    ∃ t : Fin cfg0.N, (cfg0.win 6).flush t = true ∧ i ∈ ((cfg0.win 6).blk t).view.set := by
  have hi0 : (i 0).val < 2 := (i 0).isLt
  have hi1 : (i 1).val < 512 := (i 1).isLt
  have hi2 : (i 2).val < 128 := (i 2).isLt
  have hi3 : (i 3).val < 1024 := (i 3).isLt
  obtain ⟨t, ht⟩ := block_onto ⟨(i 0).val, hi0⟩ ⟨(i 1).val / 8, by omega⟩
  have q0 : win0_6.index t (0 : Fin 4) = (i 0).val := congrFun ht 0
  have q1 : win0_6.index t (1 : Fin 4) = (i 1).val / 8 := congrFun ht 1
  have q2 : win0_6.index t (2 : Fin 4) = 0 := congrFun ht 2
  have q3 : win0_6.index t (3 : Fin 4) = 0 := congrFun ht 3
  refine ⟨t, flush0_6 t, ?_⟩
  rw [mem_blk]
  intro a
  match a with
  | ⟨0, _⟩ => show win0_6.index t (0 : Fin 4) * 1 ≤ (i 0).val ∧ (i 0).val < win0_6.index t (0 : Fin 4) * 1 + 1; omega
  | ⟨1, _⟩ => show win0_6.index t (1 : Fin 4) * 8 ≤ (i 1).val ∧ (i 1).val < win0_6.index t (1 : Fin 4) * 8 + 8; omega
  | ⟨2, _⟩ => show win0_6.index t (2 : Fin 4) * 128 ≤ (i 2).val ∧ (i 2).val < win0_6.index t (2 : Fin 4) * 128 + 128; omega
  | ⟨3, _⟩ => show win0_6.index t (3 : Fin 4) * 1024 ≤ (i 3).val ∧ (i 3).val < win0_6.index t (3 : Fin 4) * 1024 + 1024; omega

/-! ## The array after the run, and the run -/

/-- THE RESULT ARRAY after the run is the joint network's function of the argument arrays as launched. -/
theorem final (c : Dev nD) :
    (dats m 0 c).arrAt 6 cfg0.N
      = Cert.Joint.logits (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) := by
  rw [(dats m 0 c).arrAt_eq_of_cover 6 _ (fun t _ => flushed_eq m c t) covered,
    V_main_arg0, V_main_arg1, V_main_arg2, V_main_arg3, V_main_arg4, V_main_arg5]

/-- The kernel's run: every weakly fair execution terminates with the result array at the joint network's
    function of the arguments, the arguments unchanged. -/
theorem run : θ_run defs (onTc (τ := τ) (main (F := Ideal))) ⟨m, fun _ => 0, ρ⟩ fun r => ∀ c : Dev nD,
      r.2.mem ((c : Thread nD τ).loc main_v2)
        = Cert.Joint.logits (m ((c : Thread nD τ).loc main_arg0)) (m ((c : Thread nD τ).loc main_arg1)) (m ((c : Thread nD τ).loc main_arg2))
            (m ((c : Thread nD τ).loc main_arg3)) (m ((c : Thread nD τ).loc main_arg4)) (m ((c : Thread nD τ).loc main_arg5))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩) (Cert.KernelIdeal.Value.run_blocks m ρ)

end Cert.KernelIdeal.KernelValue

end
-- ==== Proof.lean ====
/-
  The joint network: a Pallas kernel against its jnp reference, equal over the extended reals.

  Both programs take the prediction activations [2, 128, 512], the encoder activations [2, 512, 512],
  two weight matrices and two biases, and produce logits [2, 512, 128, 1024]:

    logits[b, t, u, v] = Σ_h (Σ_d (enc[b, t, d] + pred[b, u, d]) · W0[d, h] + b0[h]) · W1[h, v] + b1[v].

  The kernel walks a grid of (batch, group of eight frames); at each point it flattens the 8 × 128 pairs
  (frame, step) into the rows of one matrix, rounds to bf16 on the way into each of two matrix products with
  an f32 zero accumulator, and writes one block of the result.  The reference broadcasts, adds and contracts
  the whole arrays.  Over the extended reals a change of float format is the identity and each product is the
  plain sum over its contracted axis, so both sides are the function above term for term (JointSpec): the
  reference by reading its operations at an index (RefValue), the kernel by reading one grid point's stored
  block at an index (BlockValue) and tiling the result array with the 128 blocks (KernelValue).  No
  rearrangement of sums is involved, so the finiteness of the inputs is never used.

  The three frame claims are the generated frame certificates of the two kernel programs and the reference's
  generated run with its result dropped; the idealization rewrote no operation, so there is nothing to
  preserve.
-/
import proofs.«150249_j14216341749903_1_alg».proof.Defs
import proofs.«150249_j14216341749903_1_alg».proof.Proof.Gen.Kernel
import proofs.«150249_j14216341749903_1_alg».proof.Proof.Gen.Kernel.Skeleton
import proofs.«150249_j14216341749903_1_alg».proof.Proof.Gen.Kernel.Launch
import proofs.«150249_j14216341749903_1_alg».proof.Proof.Gen.Kernel.Points
import proofs.«150249_j14216341749903_1_alg».proof.Proof.Gen.Kernel.Frame
import proofs.«150249_j14216341749903_1_alg».proof.Proof.Gen.KernelIdeal
import proofs.«150249_j14216341749903_1_alg».proof.Proof.Gen.KernelIdeal.Skeleton
import proofs.«150249_j14216341749903_1_alg».proof.Proof.Gen.KernelIdeal.Launch
import proofs.«150249_j14216341749903_1_alg».proof.Proof.Gen.KernelIdeal.Points
import proofs.«150249_j14216341749903_1_alg».proof.Proof.Gen.KernelIdeal.Frame
import proofs.«150249_j14216341749903_1_alg».proof.Proof.Gen.ReferenceIdeal
import proofs.«150249_j14216341749903_1_alg».proof.Proof.Gen.KernelIdeal.Value
import proofs.«150249_j14216341749903_1_alg».proof.Proof.Gen.ReferenceIdeal.Run
import proofs.«150249_j14216341749903_1_alg».proof.Proof.Gen.ReferenceIdeal.Read
import proofs.«150249_j14216341749903_1_alg».proof.Proof.Gen.Pre_finite_inputs
import proofs.«150249_j14216341749903_1_alg».proof.Proof.JointSpec
import proofs.«150249_j14216341749903_1_alg».proof.Proof.RefValue
import proofs.«150249_j14216341749903_1_alg».proof.Proof.KernelValue
import Idealize.ShloMosaic.Adequacy
import Idealize.ShloMosaic.Init

noncomputable section

namespace Cert.Proof

open Idealize.ShloMosaic Idealize.ShloMosaic.TcCoe Idealize.SL.Sem

/-- The word-level kernel runs and leaves its arguments as they were: the generated frame certificate. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference runs and leaves its arguments as they were: its generated run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories that agree on the six arguments both programs end with the joint network's logits of
    those arguments in their result arrays: the kernel by its blocks, the reference by its operations. -/
theorem algebraic : Cert.algebraic_KernelIdeal_ReferenceIdeal := by
  intro m ρ m' ρ' _ hagree
  refine ⟨_, Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v12_eq, Cert.ReferenceIdeal.RefValue.result_eq,
    (hagree c).1, (hagree c).2.1, (hagree c).2.2.1, (hagree c).2.2.2.1, (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
